-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x512x512 : Shape := ⟨4, ![4, 32, 512, 512]⟩
abbrev S_ : Shape := ⟨0, ![]⟩

class Facts : Prop where
  bcast_S_S4x32x512x512 : S_.BroadcastsInDim S4x32x512x512 (![] : Fin 0 → Fin S4x32x512x512.rank)
  reducesTo_S4x32x512x512_S_d0_1_2_3 : S4x32x512x512.ReducesTo [0, 1, 2, 3] S_
  h_S_ : 0 < S_.numel

variable [Facts]

def fn {F : FTy → Type} [FloatOps F] (main_arg0 : FVec F S4x32x512x512 .f32) (main_arg1 : FVec F S4x32x512x512 .f32) : IVec S_ 1 :=
  let main_v0 : FVec F S4x32x512x512 .f32 := Host.absf main_arg0
  let main_cst : FVec F S_ .f32 := constant S_ .f32 0x7F800000#32
  let main_v1 : FVec F S4x32x512x512 .f32 := broadcastInDim S4x32x512x512 ![] bcast_S_S4x32x512x512 main_cst
  let main_v2 : IVec S4x32x512x512 1 := cmpf .olt main_v0 main_v1
  let main_c : IVec S_ 1 := constantI S_ 1 1#1
  let main_v3 : IVec S_ 1 := (fun x v => Host.reduce IntOp.andi x v reducesTo_S4x32x512x512_S_d0_1_2_3 h_S_) main_v2 main_c
  let main_v4 : FVec F S4x32x512x512 .f32 := Host.absf main_arg1
  let main_cst_0 : FVec F S_ .f32 := constant S_ .f32 0x7F800000#32
  let main_v5 : FVec F S4x32x512x512 .f32 := broadcastInDim S4x32x512x512 ![] bcast_S_S4x32x512x512 main_cst_0
  let main_v6 : IVec S4x32x512x512 1 := cmpf .olt main_v4 main_v5
  let main_c_1 : IVec S_ 1 := constantI S_ 1 1#1
  let main_v7 : IVec S_ 1 := (fun x v => Host.reduce IntOp.andi x v reducesTo_S4x32x512x512_S_d0_1_2_3 h_S_) main_v6 main_c_1
  let main_v8 : IVec S_ 1 := andi main_v3 main_v7
  main_v8
-- ==== Kernel.lean ====
abbrev S4x32x512x512 : Shape := ⟨4, ![4, 32, 512, 512]⟩
abbrev S128x512x512 : Shape := ⟨3, ![128, 512, 512]⟩
abbrev S2x128x512x512 : Shape := ⟨4, ![2, 128, 512, 512]⟩
abbrev S2x512x512 : Shape := ⟨3, ![2, 512, 512]⟩
abbrev S2x2x512x512 : Shape := ⟨4, ![2, 2, 512, 512]⟩
abbrev S1x2x512x512 : Shape := ⟨4, ![1, 2, 512, 512]⟩
abbrev S2x4x32x512x512 : Shape := ⟨5, ![2, 4, 32, 512, 512]⟩

abbrev nBuf : Space → Nat
  | .hbm => 6
  | .vmem => 6
  | .smem => 0
  | _ => 0

abbrev bufTy : (tb : Table) → Fin (tcTables nBuf tb) → BufTy
  | .hbm, ⟨0, _⟩ => ⟨S4x32x512x512, .f32⟩
  | .hbm, ⟨1, _⟩ => ⟨S4x32x512x512, .f32⟩
  | .hbm, ⟨2, _⟩ => ⟨S128x512x512, .f32⟩
  | .hbm, ⟨3, _⟩ => ⟨S128x512x512, .f32⟩
  | .hbm, ⟨4, _⟩ => ⟨S2x128x512x512, .f32⟩
  | .hbm, ⟨5, _⟩ => ⟨S2x4x32x512x512, .f32⟩
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | .local _ .vmem, ⟨4, _⟩ => ⟨S2x2x512x512, .f32⟩
  | .local _ .vmem, ⟨5, _⟩ => ⟨S2x2x512x512, .f32⟩
  | _, _ => ⟨S4x32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x32x512x512_S128x512x512 : S4x32x512x512.ShapeCasts S128x512x512
  inb_S2x512x512_S2x512x512_0_0_0 : ∀ a, (![0, 0, 0] : Fin 3 → Nat) a + S2x512x512.size a ≤ S2x512x512.size a
  h_S2x512x512 : 0 < S2x512x512.numel
  shapeCasts_S2x512x512_S2x512x512 : S2x512x512.ShapeCasts S2x512x512
  iota_S2x512x512_d1_w32 : S2x512x512.Iotas .tc 32 [1]
  iota_S2x512x512_d2_w32 : S2x512x512.Iotas .tc 32 [2]
  rotates_S2x512x512_d1 : S2x512x512.Rotates 1 none
  rotates_S2x512x512_d2 : S2x512x512.Rotates 2 none
  inb_S2x2x512x512_S1x2x512x512_0_0_0_0 : ∀ a, (![0, 0, 0, 0] : Fin 4 → Nat) a + S1x2x512x512.size a ≤ S2x2x512x512.size a
  h_S1x2x512x512 : 0 < S1x2x512x512.numel
  shapeCasts_S1x2x512x512_S2x512x512 : S1x2x512x512.ShapeCasts S2x512x512
  shapeCasts_S2x512x512_S1x2x512x512 : S2x512x512.ShapeCasts S1x2x512x512
  inb_S2x2x512x512_S1x2x512x512_1_0_0_0 : ∀ a, (![1, 0, 0, 0] : Fin 4 → Nat) a + S1x2x512x512.size a ≤ S2x2x512x512.size a
  shapeCasts_S2x128x512x512_S2x4x32x512x512 : S2x128x512x512.ShapeCasts S2x4x32x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S128x512x512.size a
  hwx0_0 : ∀ i : grid0.Coords, EltTy.bits .f32 = 32 ∨ (Rect.block (s := S128x512x512) S2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S128x512x512.size a
  hwx0_1 : ∀ i : grid0.Coords, EltTy.bits .f32 = 32 ∨ (Rect.block (s := S128x512x512) S2x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x2x512x512.size a ≤ S2x128x512x512.size a
  hwx0_2 : ∀ i : grid0.Coords, EltTy.bits .f32 = 32 ∨ (Rect.block (s := S2x128x512x512) S2x2x512x512.size (cc0_transform_2 i) (hinb0_2 i)).WholeWords (EltTy.packing .f32)

variable [Facts₀]

abbrev win0_0 : Pipeline.Window sig grid0 :=
  Pipeline.Window.ofSpec (Memref.whole main_v0) S2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x2x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x32x512x512 : Shape := ⟨4, ![4, 32, 512, 512]⟩
abbrev S_ : Shape := ⟨0, ![]⟩
abbrev S4x32x513x512 : Shape := ⟨4, ![4, 32, 513, 512]⟩
abbrev S4x32x512x513 : Shape := ⟨4, ![4, 32, 512, 513]⟩
abbrev S4x32x513x513 : Shape := ⟨4, ![4, 32, 513, 513]⟩
abbrev S1x4x32x512x512 : Shape := ⟨5, ![1, 4, 32, 512, 512]⟩
abbrev S2x4x32x512x512 : Shape := ⟨5, ![2, 4, 32, 512, 512]⟩

abbrev nBuf : Space → Nat
  | .hbm => 50
  | .vmem => 0
  | .smem => 0
  | _ => 0

abbrev bufTy : (tb : Table) → Fin (tcTables nBuf tb) → BufTy
  | .hbm, ⟨0, _⟩ => ⟨S4x32x512x512, .f32⟩
  | .hbm, ⟨1, _⟩ => ⟨S4x32x512x512, .f32⟩
  | .hbm, ⟨2, _⟩ => ⟨S_, .f32⟩
  | .hbm, ⟨3, _⟩ => ⟨S_, .f32⟩
  | .hbm, ⟨4, _⟩ => ⟨S4x32x512x512, .f32⟩
  | .hbm, ⟨5, _⟩ => ⟨S_, .f32⟩
  | .hbm, ⟨6, _⟩ => ⟨S_, .f32⟩
  | .hbm, ⟨7, _⟩ => ⟨S4x32x512x512, .f32⟩
  | .hbm, ⟨8, _⟩ => ⟨S4x32x512x512, .f32⟩
  | .hbm, ⟨9, _⟩ => ⟨S_, .f32⟩
  | .hbm, ⟨10, _⟩ => ⟨S_, .f32⟩
  | .hbm, ⟨11, _⟩ => ⟨S4x32x513x512, .f32⟩
  | .hbm, ⟨12, _⟩ => ⟨S4x32x512x512, .f32⟩
  | .hbm, ⟨13, _⟩ => ⟨S4x32x512x512, .f32⟩
  | .hbm, ⟨14, _⟩ => ⟨S_, .f32⟩
  | .hbm, ⟨15, _⟩ => ⟨S_, .f32⟩
  | .hbm, ⟨16, _⟩ => ⟨S4x32x512x513, .f32⟩
  | .hbm, ⟨17, _⟩ => ⟨S4x32x512x512, .f32⟩
  | .hbm, ⟨18, _⟩ => ⟨S4x32x512x512, .f32⟩
  | .hbm, ⟨19, _⟩ => ⟨S_, .f32⟩
  | .hbm, ⟨20, _⟩ => ⟨S_, .f32⟩
  | .hbm, ⟨21, _⟩ => ⟨S4x32x513x513, .f32⟩
  | .hbm, ⟨22, _⟩ => ⟨S4x32x512x512, .f32⟩
  | .hbm, ⟨23, _⟩ => ⟨S4x32x512x512, .f32⟩
  | .hbm, ⟨24, _⟩ => ⟨S_, .f32⟩
  | .hbm, ⟨25, _⟩ => ⟨S_, .f32⟩
  | .hbm, ⟨26, _⟩ => ⟨S4x32x512x512, .f32⟩
  | .hbm, ⟨27, _⟩ => ⟨S_, .f32⟩
  | .hbm, ⟨28, _⟩ => ⟨S_, .f32⟩
  | .hbm, ⟨29, _⟩ => ⟨S4x32x513x513, .f32⟩
  | .hbm, ⟨30, _⟩ => ⟨S4x32x512x512, .f32⟩
  | .hbm, ⟨31, _⟩ => ⟨S4x32x512x512, .f32⟩
  | .hbm, ⟨32, _⟩ => ⟨S_, .f32⟩
  | .hbm, ⟨33, _⟩ => ⟨S_, .f32⟩
  | .hbm, ⟨34, _⟩ => ⟨S4x32x513x512, .f32⟩
  | .hbm, ⟨35, _⟩ => ⟨S4x32x512x512, .f32⟩
  | .hbm, ⟨36, _⟩ => ⟨S4x32x512x512, .f32⟩
  | .hbm, ⟨37, _⟩ => ⟨S_, .f32⟩
  | .hbm, ⟨38, _⟩ => ⟨S_, .f32⟩
  | .hbm, ⟨39, _⟩ => ⟨S4x32x512x513, .f32⟩
  | .hbm, ⟨40, _⟩ => ⟨S4x32x512x512, .f32⟩
  | .hbm, ⟨41, _⟩ => ⟨S4x32x512x512, .f32⟩
  | .hbm, ⟨42, _⟩ => ⟨S_, .f32⟩
  | .hbm, ⟨43, _⟩ => ⟨S_, .f32⟩
  | .hbm, ⟨44, _⟩ => ⟨S4x32x513x513, .f32⟩
  | .hbm, ⟨45, _⟩ => ⟨S4x32x512x512, .f32⟩
  | .hbm, ⟨46, _⟩ => ⟨S4x32x512x512, .f32⟩
  | .hbm, ⟨47, _⟩ => ⟨S1x4x32x512x512, .f32⟩
  | .hbm, ⟨48, _⟩ => ⟨S1x4x32x512x512, .f32⟩
  | .hbm, ⟨49, _⟩ => ⟨S2x4x32x512x512, .f32⟩
  | _, _ => ⟨S4x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_cst_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_call2_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_call3_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_call4_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call5_v0 : Ref sig .tc := ⟨.hbm, 25, rfl⟩
abbrev main_v12 : Ref sig .tc := ⟨.hbm, 26, rfl⟩
abbrev main_cst_5 : Ref sig .tc := ⟨.hbm, 27, rfl⟩
abbrev main_call6_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_6 : Ref sig .tc := ⟨.hbm, 32, rfl⟩
abbrev main_call7_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_7 : Ref sig .tc := ⟨.hbm, 37, rfl⟩
abbrev main_call8_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_8 : Ref sig .tc := ⟨.hbm, 42, rfl⟩
abbrev main_call9_v0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]

class Facts₀ : Prop where
  pads_S4x32x512x512_S4x32x512x512_000_000_000_000 : S4x32x512x512.Pads (![0, 0, 0, 0] : Fin 4 → Nat) ![0, 0, 0, 0] ![0, 0, 0, 0] S4x32x512x512
  h_S_ : 0 < S_.numel
  pads_S4x32x512x512_S4x32x513x512_000_000_010_000 : S4x32x512x512.Pads (![0, 0, 0, 0] : Fin 4 → Nat) ![0, 0, 1, 0] ![0, 0, 0, 0] S4x32x513x512
  slices_S4x32x513x512_S4x32x512x512_0_0_1_0 : S4x32x513x512.Slices ![0, 0, 1, 0] S4x32x512x512
  pads_S4x32x512x512_S4x32x512x513_000_000_000_010 : S4x32x512x512.Pads (![0, 0, 0, 0] : Fin 4 → Nat) ![0, 0, 0, 1] ![0, 0, 0, 0] S4x32x512x513
  slices_S4x32x512x513_S4x32x512x512_0_0_0_1 : S4x32x512x513.Slices ![0, 0, 0, 1] S4x32x512x512
  pads_S4x32x512x512_S4x32x513x513_000_000_010_010 : S4x32x512x512.Pads (![0, 0, 0, 0] : Fin 4 → Nat) ![0, 0, 1, 1] ![0, 0, 0, 0] S4x32x513x513
  slices_S4x32x513x513_S4x32x512x512_0_0_1_1 : S4x32x513x513.Slices ![0, 0, 1, 1] S4x32x512x512
  bcast_S4x32x512x512_S1x4x32x512x512_1_2_3_4 : S4x32x512x512.BroadcastsInDim S1x4x32x512x512 (![1, 2, 3, 4] : Fin 4 → Fin S1x4x32x512x512.rank)
  concatenates_S1x4x32x512x512_S1x4x32x512x512_S2x4x32x512x512_d0 : Shape.Concatenates [S1x4x32x512x512, S1x4x32x512x512] S2x4x32x512x512 0

variable [Facts₀]

class Facts : Prop extends Facts₀ where

variable [Facts]
-- ==== Proof.LibRotatePad.lean ====
/-
  Two layout operations read at an index, in the style of the library's own index lemmas: the caller names the
  operand index by its coordinates and owes one arithmetic fact per axis.

  * A ROTATION along one axis with no stride: the element read at j is the operand's element whose coordinate on
    the rotated axis sits n places back, cyclically, and whose other coordinates are j's.
  * A PAD that only appends on the high side (no low padding, no interior padding): an index whose every
    coordinate is inside the operand's extent reads the operand there; an index with one coordinate at or past the
    operand's extent reads the padding value.
-/
import Idealize.ShloMosaic.Lib.Pipeline.Value

noncomputable section

namespace Cert.Lib

open Idealize.ShloMosaic

variable {α : Type}

/-- A stride-free rotation along axis a by n, read at j, is the operand at the index k that agrees with j
    off axis a and whose coordinate on a is j's moved back by n modulo the extent. -/
theorem dynamicRotate_apply {s : Shape} (a : Fin s.rank) (n : BitVec 32) (x : s.Idx → α) (h : s.Rotates a none)
    (j k : s.Idx)
    (hk : ∀ b : Fin s.rank, (k b).val
        = if b = a then ((j b).val + s.size b - n.toNat % s.size b) % s.size b else (j b).val) :
    dynamicRotate a n none x h j = x k := by
  unfold dynamicRotate
  refine congrArg x (funext fun b => Fin.ext ?_)
  rw [hk b]
  by_cases hb : b = a
  · simp only [hb, if_true, Nat.add_zero]
  · simp only [hb, if_false]

/-- A pad with no low and no interior padding, read at an index inside the operand's extents, is the operand
    there. -/
theorem pad_high_apply_inside {s t u : Shape} (lo hi interior : Fin s.rank → Nat) (x : s.Idx → α) (v : u.Idx → α)
    (h : s.Pads lo hi interior t) (hu : 0 < u.numel) (hlo : ∀ a, lo a = 0) (hint : ∀ a, interior a = 0)
    (j : t.Idx) (k : s.Idx) (hk : ∀ a : Fin s.rank, (k a).val = (j (a.cast h.1)).val) :
    pad t lo hi interior x v h hu j = x k := by
  unfold pad
  have hin : ∀ a : Fin s.rank, lo a ≤ (j (a.cast h.1)).val
      ∧ ((j (a.cast h.1)).val - lo a) % (interior a + 1) = 0
      ∧ ((j (a.cast h.1)).val - lo a) / (interior a + 1) < s.size a := fun a => by
    rw [hlo a, hint a, ← hk a]
    exact ⟨Nat.zero_le _, by omega, by simpa using (k a).isLt⟩
  rw [dif_pos hin]
  refine congrArg x (funext fun a => Fin.ext ?_)
  show ((j (a.cast h.1)).val - lo a) / (interior a + 1) = (k a).val
  rw [hlo a, hint a, hk a]
  simp

/-- The same pad read at an index with a coordinate at or past the operand's extent is the padding value. -/
theorem pad_high_apply_outside {s t u : Shape} (lo hi interior : Fin s.rank → Nat) (x : s.Idx → α) (v : u.Idx → α)
    (h : s.Pads lo hi interior t) (hu : 0 < u.numel) (hlo : ∀ a, lo a = 0) (hint : ∀ a, interior a = 0)
    (j : t.Idx) (a : Fin s.rank) (ha : s.size a ≤ (j (a.cast h.1)).val) :
    pad t lo hi interior x v h hu j = v (Shape.Idx.first hu) := by
  unfold pad
  rw [dif_neg]
  intro hin
  have h3 := (hin a).2.2
  rw [hlo a, hint a] at h3
  simp at h3
  omega

end Cert.Lib

end
-- ==== Proof.LibLatticePool.lean ====
/-
  Max-pooling over the quincunx lattice, stated on planes.

  A PLANE is a function of two natural coordinates into the extended reals. An H×W slice of an array becomes a
  plane by extending it with a fill value d outside its range (plane3, plane4): reading such a plane at (i+1, j)
  is then literally "look one row ahead, the fill value past the edge", which is how both programs treat the
  boundary (their fill value is −∞, but nothing here needs to know its value).

  The lattice has two interleaved cosets P and Q. A point of coset 0 pools its own value, its own three look-ahead
  neighbours and the other coset's value at the same place (pool0); a point of coset 1 pools its own value and three
  look-ahead neighbours and the other coset's diagonal look-ahead neighbour (pool1). kpool0 / kpool1 are the same
  five-fold maxima taken in another order; max being associative and commutative, the order is immaterial.
-/
import Idealize.ShloMosaic.Lib.ValueIdx

noncomputable section

namespace Cert.Lattice

open Idealize.ShloMosaic Idealize.ShloMosaic.ValueIdx

/-- The value both programs put past the edge of a plane: the float word of −∞, never evaluated here. -/
abbrev fill : EReal := Ideal.ofBits .f32 0xFF800000#32

/-! ## Planes of an array -/

variable {α : Type}

/-- Slice n of an [N, H, W] array at natural coordinates, the fill value d outside the array. -/
def plane3 {N H W : ℕ} (d : α) (x : (⟨3, ![N, H, W]⟩ : Shape).Idx → α) (n i j : ℕ) : α :=
  if h : n < N ∧ i < H ∧ j < W then x (ix3 ⟨n, h.1⟩ ⟨i, h.2.1⟩ ⟨j, h.2.2⟩) else d

/-- Slice (b, c) of a [B, C, H, W] array at natural coordinates, the fill value d outside the array. -/
def plane4 {B C H W : ℕ} (d : α) (x : (⟨4, ![B, C, H, W]⟩ : Shape).Idx → α) (b c i j : ℕ) : α :=
  if h : b < B ∧ c < C ∧ i < H ∧ j < W then x (ix4 ⟨b, h.1⟩ ⟨c, h.2.1⟩ ⟨i, h.2.2.1⟩ ⟨j, h.2.2.2⟩) else d

theorem plane3_of_lt {N H W : ℕ} (d : α) (x : (⟨3, ![N, H, W]⟩ : Shape).Idx → α) {n i j : ℕ}
    (hn : n < N) (hi : i < H) (hj : j < W) : plane3 d x n i j = x (ix3 ⟨n, hn⟩ ⟨i, hi⟩ ⟨j, hj⟩) :=
  dif_pos ⟨hn, hi, hj⟩

theorem plane3_of_not {N H W : ℕ} (d : α) (x : (⟨3, ![N, H, W]⟩ : Shape).Idx → α) {n i j : ℕ}
    (h : ¬(n < N ∧ i < H ∧ j < W)) : plane3 d x n i j = d :=
  dif_neg h

theorem plane4_of_lt {B C H W : ℕ} (d : α) (x : (⟨4, ![B, C, H, W]⟩ : Shape).Idx → α) {b c i j : ℕ}
    (hb : b < B) (hc : c < C) (hi : i < H) (hj : j < W) :
    plane4 d x b c i j = x (ix4 ⟨b, hb⟩ ⟨c, hc⟩ ⟨i, hi⟩ ⟨j, hj⟩) :=
  dif_pos ⟨hb, hc, hi, hj⟩

theorem plane4_of_not {B C H W : ℕ} (d : α) (x : (⟨4, ![B, C, H, W]⟩ : Shape).Idx → α) {b c i j : ℕ}
    (h : ¬(b < B ∧ c < C ∧ i < H ∧ j < W)) : plane4 d x b c i j = d :=
  dif_neg h

/-- The plane of a pointwise maximum is the pointwise maximum of the planes (outside the array: max d d = d). -/
theorem plane3_max {N H W : ℕ} {φ : FTy} (d : EReal) (a b : FVec Ideal (⟨3, ![N, H, W]⟩ : Shape) φ) (n i j : ℕ) :
    plane3 d (maximumf a b) n i j = max (plane3 d a n i j) (plane3 d b n i j) := by
  unfold plane3
  by_cases h : n < N ∧ i < H ∧ j < W
  · rw [dif_pos h, dif_pos h, dif_pos h]; rfl
  · rw [dif_neg h, dif_neg h, dif_neg h, max_self]

/-! ## The two pools -/

/-- Coset 0: own value, the other coset's value, own neighbours one row ahead, one column ahead, and diagonally. -/
def pool0 (P Q : ℕ → ℕ → EReal) (i j : ℕ) : EReal :=
  max (max (max (max (P i j) (Q i j)) (P (i + 1) j)) (P i (j + 1))) (P (i + 1) (j + 1))

/-- Coset 1 (own values Q): own value, the other coset's diagonal neighbour, then own neighbours one row ahead, one
    column ahead, and diagonally. -/
def pool1 (P Q : ℕ → ℕ → EReal) (i j : ℕ) : EReal :=
  max (max (max (max (Q i j) (P (i + 1) (j + 1))) (Q (i + 1) j)) (Q i (j + 1))) (Q (i + 1) (j + 1))

/-- Coset 0's pool with the other coset's value taken last. -/
def kpool0 (P Q : ℕ → ℕ → EReal) (i j : ℕ) : EReal :=
  max (max (max (max (P i j) (P (i + 1) j)) (P i (j + 1))) (P (i + 1) (j + 1))) (Q i j)

/-- Coset 1's pool with the other coset's diagonal neighbour taken last. -/
def kpool1 (P Q : ℕ → ℕ → EReal) (i j : ℕ) : EReal :=
  max (max (max (max (Q i j) (Q (i + 1) j)) (Q i (j + 1))) (Q (i + 1) (j + 1))) (P (i + 1) (j + 1))

/-- In a five-fold maximum the last operand may be taken second: max is associative and commutative. -/
theorem max5_last_second (a b c d e : EReal) :
    max (max (max (max a b) c) d) e = max (max (max (max a e) b) c) d := by
  rw [max_right_comm _ d e, max_right_comm _ c e, max_right_comm a b e]

theorem kpool0_eq (P Q : ℕ → ℕ → EReal) (i j : ℕ) : kpool0 P Q i j = pool0 P Q i j :=
  max5_last_second _ _ _ _ _

theorem kpool1_eq (P Q : ℕ → ℕ → EReal) (i j : ℕ) : kpool1 P Q i j = pool1 P Q i j :=
  max5_last_second _ _ _ _ _

/-! ## The pooled arrays -/

/-- Both cosets pooled, stacked along a new leading axis: from two [B, C, H, W] arrays a [2, B, C, H, W] array whose
    slice 0 is coset 0's pool and whose slice 1 is coset 1's, each H×W plane pooled by itself. -/
def pooled {B C H W : ℕ} (d : EReal) (a0 a1 : (⟨4, ![B, C, H, W]⟩ : Shape).Idx → EReal) :
    (⟨5, ![2, B, C, H, W]⟩ : Shape).Idx → EReal := fun q =>
  if (q 0).val = 0 then
    pool0 (plane4 d a0 (q 1).val (q 2).val) (plane4 d a1 (q 1).val (q 2).val) (q 3).val (q 4).val
  else
    pool1 (plane4 d a0 (q 1).val (q 2).val) (plane4 d a1 (q 1).val (q 2).val) (q 3).val (q 4).val

/-- The same over [N, H, W] arrays, into a [2, N, H, W] array, the maxima taken in the other order. -/
def kpooled {N H W : ℕ} (d : EReal) (u0 u1 : (⟨3, ![N, H, W]⟩ : Shape).Idx → EReal) :
    (⟨4, ![2, N, H, W]⟩ : Shape).Idx → EReal := fun y =>
  if (y 0).val = 0 then
    kpool0 (plane3 d u0 (y 1).val) (plane3 d u1 (y 1).val) (y 2).val (y 3).val
  else
    kpool1 (plane3 d u0 (y 1).val) (plane3 d u1 (y 1).val) (y 2).val (y 3).val

/-- The pooled [2, N, H, W] array at an index given by its coordinates. -/
theorem kpooled_ix4 {N H W : ℕ} (d : EReal) (u0 u1 : (⟨3, ![N, H, W]⟩ : Shape).Idx → EReal)
    (k : Fin 2) (n : Fin N) (i : Fin H) (j : Fin W) :
    kpooled d u0 u1 (ix4 k n i j)
      = if k.val = 0 then kpool0 (plane3 d u0 n.val) (plane3 d u1 n.val) i.val j.val
        else kpool1 (plane3 d u0 n.val) (plane3 d u1 n.val) i.val j.val := rfl

/-- The pooled [2, B, C, H, W] array at an index given by its coordinates. -/
theorem pooled_ix5 {B C H W : ℕ} (d : EReal) (a0 a1 : (⟨4, ![B, C, H, W]⟩ : Shape).Idx → EReal)
    (k : Fin 2) (b : Fin B) (c : Fin C) (i : Fin H) (j : Fin W) :
    pooled d a0 a1 (ix5 k b c i j)
      = if k.val = 0 then pool0 (plane4 d a0 b.val c.val) (plane4 d a1 b.val c.val) i.val j.val
        else pool1 (plane4 d a0 b.val c.val) (plane4 d a1 b.val c.val) i.val j.val := rfl

end Cert.Lattice

end
-- ==== Proof.KernelBlock.lean ====
/-
  What the kernel body computes on one block, as planes.

  The body holds two [2, 512, 512] blocks x0, x1 (two channel images of each coset). Its only non-pointwise steps are
  three kinds of masked rotation: rotate a block by 511 along the row axis (so that row i shows row i+1, the last row
  wrapping round) and overwrite the wrapped last row by the fill value; the same along the column axis; and the two
  composed. Read on a plane extended by the fill value, the first is "one row ahead", the second "one column ahead",
  the composite "diagonally ahead" — with no case distinction left at the edge. The two stored values are then the
  two pools of the planes of x0 and x1.
-/
import proofs.«170969_j16853451669851_2_alg».proof.Proof.Gen.KernelIdeal.Skeleton
import proofs.«170969_j16853451669851_2_alg».proof.Proof.LibRotatePad
import proofs.«170969_j16853451669851_2_alg».proof.Proof.LibLatticePool

noncomputable section

namespace Cert.Lattice.Block

open Cert.KernelIdeal Cert.KernelIdeal.Gen Idealize.ShloMosaic Idealize.ShloMosaic.ValueIdx Cert.Lattice

/-! ## The two edge masks -/

/-- Below 512, a coordinate compares signed-less than 511 exactly when it is less than 511. -/
theorem slt_511 : ∀ n : Fin 512, IntOp.cmpi .slt (BitVec.ofNat 32 n.val) 511#32 = if n.val < 511 then 1#1 else 0#1 := by
  decide +kernel

/-- The row mask is on except in the last row. -/
theorem maskH_apply (p : Fin 2) (i j : Fin 512) : k0_pay5 (ix3 p i j) = if i.val < 511 then 1#1 else 0#1 := by
  unfold k0_pay5
  show IntOp.cmpi .slt (iota .tc S2x512x512 32 [1] iota_S2x512x512_d1_w32 (ix3 p i j)) 511#32 = _
  rw [iota_single_apply]
  exact slt_511 i

/-- The column mask is on except in the last column. -/
theorem maskW_apply (p : Fin 2) (i j : Fin 512) : k0_pay6 (ix3 p i j) = if j.val < 511 then 1#1 else 0#1 := by
  unfold k0_pay6
  show IntOp.cmpi .slt (iota .tc S2x512x512 32 [2] iota_S2x512x512_d2_w32 (ix3 p i j)) 511#32 = _
  rw [iota_single_apply]
  exact slt_511 j

/-! ## The masked rotations -/

/-- Rotate by 511 along the rows and put the fill value in the last row. -/
def aheadH (x : FVec Ideal S2x512x512 .f32) : FVec Ideal S2x512x512 .f32 :=
  select k0_pay5 (dynamicRotate 1 511#32 none x rotates_S2x512x512_d1) (broadcast S2x512x512 (Scalar.ofBits .f32 0xFF800000#32))

/-- Rotate by 511 along the columns and put the fill value in the last column. -/
def aheadW (x : FVec Ideal S2x512x512 .f32) : FVec Ideal S2x512x512 .f32 :=
  select k0_pay6 (dynamicRotate 2 511#32 none x rotates_S2x512x512_d2) (broadcast S2x512x512 (Scalar.ofBits .f32 0xFF800000#32))

/-- On planes, the row rotation with its mask is a look one row ahead. -/
theorem aheadH_plane (x : FVec Ideal S2x512x512 .f32) (n i j : ℕ) :
    plane3 fill (aheadH x) n i j = plane3 fill x n (i + 1) j := by
  by_cases h : n < 2 ∧ i < 512 ∧ j < 512
  · obtain ⟨hn, hi, hj⟩ := h
    rw [plane3_of_lt _ _ hn hi hj]
    show Scalar.select (k0_pay5 (ix3 ⟨n, hn⟩ ⟨i, hi⟩ ⟨j, hj⟩))
      (dynamicRotate 1 511#32 none x rotates_S2x512x512_d1 (ix3 ⟨n, hn⟩ ⟨i, hi⟩ ⟨j, hj⟩)) fill = _
    rw [maskH_apply]
    by_cases hi' : i < 511
    · rw [if_pos hi', select_one, plane3_of_lt _ _ hn (by omega : i + 1 < 512) hj]
      exact Cert.Lib.dynamicRotate_apply 1 511#32 x rotates_S2x512x512_d1 _ _ (fun b => match b with
        | ⟨0, _⟩ => by show n = if (0 : Fin 3) = 1 then _ else n; rw [if_neg (by decide)]
        | ⟨1, _⟩ => by show i + 1 = if (1 : Fin 3) = 1 then (i + 512 - 511 % 512) % 512 else i; rw [if_pos rfl]; omega
        | ⟨2, _⟩ => by show j = if (2 : Fin 3) = 1 then _ else j; rw [if_neg (by decide)])
    · rw [if_neg hi', select_zero, plane3_of_not _ _ (by omega)]
  · rw [plane3_of_not _ _ h, plane3_of_not _ _ (by omega)]

/-- On planes, the column rotation with its mask is a look one column ahead. -/
theorem aheadW_plane (x : FVec Ideal S2x512x512 .f32) (n i j : ℕ) :
    plane3 fill (aheadW x) n i j = plane3 fill x n i (j + 1) := by
  by_cases h : n < 2 ∧ i < 512 ∧ j < 512
  · obtain ⟨hn, hi, hj⟩ := h
    rw [plane3_of_lt _ _ hn hi hj]
    show Scalar.select (k0_pay6 (ix3 ⟨n, hn⟩ ⟨i, hi⟩ ⟨j, hj⟩))
      (dynamicRotate 2 511#32 none x rotates_S2x512x512_d2 (ix3 ⟨n, hn⟩ ⟨i, hi⟩ ⟨j, hj⟩)) fill = _
    rw [maskW_apply]
    by_cases hj' : j < 511
    · rw [if_pos hj', select_one, plane3_of_lt _ _ hn hi (by omega : j + 1 < 512)]
      exact Cert.Lib.dynamicRotate_apply 2 511#32 x rotates_S2x512x512_d2 _ _ (fun b => match b with
        | ⟨0, _⟩ => by show n = if (0 : Fin 3) = 2 then _ else n; rw [if_neg (by decide)]
        | ⟨1, _⟩ => by show i = if (1 : Fin 3) = 2 then _ else i; rw [if_neg (by decide)]
        | ⟨2, _⟩ => by show j + 1 = if (2 : Fin 3) = 2 then (j + 512 - 511 % 512) % 512 else j; rw [if_pos rfl]; omega)
    · rw [if_neg hj', select_zero, plane3_of_not _ _ (by omega)]
  · rw [plane3_of_not _ _ h, plane3_of_not _ _ (by omega)]

/-! ## The two stored values -/

/-- The first stored value: coset 0's block, its three look-aheads, then coset 1's block, by successive maxima. -/
theorem pay9_eq (x0 x1 : Vec Ideal S2x512x512 .f32) :
    k0_pay9 x0 x1 = maximumf (maximumf (maximumf (maximumf x0 (aheadH x0)) (aheadW x0)) (aheadH (aheadW x0))) x1 := by
  unfold k0_pay9 k0_pay8 k0_pay7 k0_pay4 k0_pay3 aheadH aheadW
  simp only [shapeCast_self]

/-- The second stored value: coset 1's block, its three look-aheads, then coset 0's diagonal look-ahead. -/
theorem pay10_eq (x0 x1 : Vec Ideal S2x512x512 .f32) :
    k0_pay10 x0 x1 = maximumf (maximumf (maximumf (maximumf x1 (aheadH x1)) (aheadW x1)) (aheadH (aheadW x1))) (aheadH (aheadW x0)) := by
  unfold k0_pay10 k0_pay8 k0_pay7 k0_pay4 k0_pay3 aheadH aheadW
  simp only [shapeCast_self]

/-- Plane n of the first stored value is coset 0's pool of the planes of the two blocks. -/
theorem pay9_plane (x0 x1 : Vec Ideal S2x512x512 .f32) (n i j : ℕ) :
    plane3 fill (k0_pay9 x0 x1) n i j = kpool0 (plane3 fill x0 n) (plane3 fill x1 n) i j := by
  rw [pay9_eq]
  simp only [plane3_max, aheadH_plane, aheadW_plane]
  rfl

/-- Plane n of the second stored value is coset 1's pool of the planes of the two blocks. -/
theorem pay10_plane (x0 x1 : Vec Ideal S2x512x512 .f32) (n i j : ℕ) :
    plane3 fill (k0_pay10 x0 x1) n i j = kpool1 (plane3 fill x0 n) (plane3 fill x1 n) i j := by
  rw [pay10_eq]
  simp only [plane3_max, aheadH_plane, aheadW_plane]
  rfl

end Cert.Lattice.Block

end
-- ==== Proof.KernelOut.lean ====
/-
  What the body leaves in the output block, as one function of the two input blocks.

  The output block is [2, 2, 512, 512]: the body stores coset 0's result into its first half (leading coordinate 0)
  and coset 1's result into its second half (leading coordinate 1), each through a [1, 2, 512, 512] rectangle. The
  two rectangles tile the block, so the block holds, at every index, the pooled value of the input blocks' planes:
  the first stored value where the leading coordinate is 0, the second where it is 1.
-/
import proofs.«170969_j16853451669851_2_alg».proof.Proof.Gen.KernelIdeal.Frame
import proofs.«170969_j16853451669851_2_alg».proof.Proof.KernelBlock

noncomputable section

namespace Cert.Lattice.Block

open Cert.KernelIdeal Cert.KernelIdeal.Gen Idealize.ShloMosaic Idealize.ShloMosaic.ValueIdx Cert.Lattice

theorem zero3 : (![0, 0, 0] : Fin 3 → Nat) = fun _ => 0 := funext fun a => by fin_cases a <;> rfl

/-- The index of the output block under local index z of the first half. -/
theorem emb_lower (z : S1x2x512x512.Idx) :
    r0_1.emb z = ix4 (⟨0, by decide⟩ : Fin 2) (⟨(z 1).val, (z 1).isLt⟩ : Fin 2) (⟨(z 2).val, (z 2).isLt⟩ : Fin 512) (⟨(z 3).val, (z 3).isLt⟩ : Fin 512) := by
  have h0 : (z 0).val < 1 := (z 0).isLt
  funext a
  apply Fin.ext
  match a with
  | ⟨0, _⟩ => show 0 + 1 * (z 0).val = 0; omega
  | ⟨1, _⟩ => show 0 + 1 * (z 1).val = (z 1).val; omega
  | ⟨2, _⟩ => show 0 + 1 * (z 2).val = (z 2).val; omega
  | ⟨3, _⟩ => show 0 + 1 * (z 3).val = (z 3).val; omega

/-- The index of the output block under local index z of the second half. -/
theorem emb_upper (z : S1x2x512x512.Idx) :
    r0_2.emb z = ix4 (⟨1, by decide⟩ : Fin 2) (⟨(z 1).val, (z 1).isLt⟩ : Fin 2) (⟨(z 2).val, (z 2).isLt⟩ : Fin 512) (⟨(z 3).val, (z 3).isLt⟩ : Fin 512) := by
  have h0 : (z 0).val < 1 := (z 0).isLt
  funext a
  apply Fin.ext
  match a with
  | ⟨0, _⟩ => show 1 + 1 * (z 0).val = 1; omega
  | ⟨1, _⟩ => show 0 + 1 * (z 1).val = (z 1).val; omega
  | ⟨2, _⟩ => show 0 + 1 * (z 2).val = (z 2).val; omega
  | ⟨3, _⟩ => show 0 + 1 * (z 3).val = (z 3).val; omega

/-- A [2, 512, 512] value viewed as [1, 2, 512, 512], read at z, is the value at z's last three coordinates. -/
theorem addUnit_apply (w : FVec Ideal S2x512x512 .f32) (z : S1x2x512x512.Idx) :
    shapeCast S1x2x512x512 w shapeCasts_S2x512x512_S1x2x512x512 z
      = plane3 fill w (z 1).val (z 2).val (z 3).val := by
  refine (shapeCast_addUnit_apply ![2, 512, 512] w shapeCasts_S2x512x512_S1x2x512x512 z).trans ?_
  rw [plane3_of_lt fill w (z 1).isLt (z 2).isLt (z 3).isLt]
  exact congrArg w (funext fun a => match a with | ⟨0, _⟩ => rfl | ⟨1, _⟩ => rfl | ⟨2, _⟩ => rfl)

/-- The first half's stored value is the pooled block under it. -/
theorem piece_lower (x0 x1 : Vec Ideal S2x512x512 .f32) (z : S1x2x512x512.Idx) :
    k0_pay1 (k0_pay9 x0 x1) z = kpooled fill x0 x1 (r0_1.emb z) := by
  unfold k0_pay1
  rw [addUnit_apply, pay9_plane, emb_lower, kpooled_ix4, if_pos rfl]

/-- The second half's stored value is the pooled block under it. -/
theorem piece_upper (x0 x1 : Vec Ideal S2x512x512 .f32) (z : S1x2x512x512.Idx) :
    k0_pay2 (k0_pay10 x0 x1) z = kpooled fill x0 x1 (r0_2.emb z) := by
  unfold k0_pay2
  rw [addUnit_apply, pay10_plane, emb_upper, kpooled_ix4, if_neg (by decide)]

/-- THE OUTPUT BLOCK after the body is the pooled block of the two input blocks. -/
theorem out_block (x0 x1 : Vec Ideal S2x512x512 .f32) : out0_2 x0 x1 = kpooled fill x0 x1 := by
  funext y
  unfold out0_2
  rw [View.ld_unit_zero (S := S2x512x512) zero3 _ x0, View.ld_unit_zero (S := S2x512x512) zero3 _ x1]
  refine View.canon_apply_of_pieces (Val := Elt Ideal) (kpooled fill x0 x1) _ (fun p hp => ?_) y (cover0_2 _ _ y)
  rcases List.mem_cons.mp hp with rfl | hp
  · exact piece_upper x0 x1
  · rcases List.mem_cons.mp hp with rfl | hp
    · exact piece_lower x0 x1
    · exact absurd hp List.not_mem_nil

end Cert.Lattice.Block

end
-- ==== Proof.KernelReshape.lean ====
/-
  The reshapes around the pooling, in row-major order.

  The kernel's program views each [4, 32, 512, 512] coset as [128, 512, 512] (channel image b·32 + c is image c of
  batch b), pools channel image by channel image into a [2, 128, 512, 512] array, and views that as
  [2, 4, 32, 512, 512]. Pooling never mixes channel images, so this is the pooled [2, 4, 32, 512, 512] array of the
  cosets themselves; and the order in which the five values are maximised does not matter.
-/
import Idealize.ShloMosaic.Lib.Pipeline.Value
import proofs.«170969_j16853451669851_2_alg».proof.Proof.LibLatticePool

noncomputable section

namespace Cert.Lattice.Reshape

open Idealize.ShloMosaic Idealize.ShloMosaic.ValueIdx Cert.Lattice

abbrev A4 : Shape := ⟨4, ![4, 32, 512, 512]⟩
abbrev A3 : Shape := ⟨3, ![128, 512, 512]⟩
abbrev R4 : Shape := ⟨4, ![2, 128, 512, 512]⟩
abbrev R5 : Shape := ⟨5, ![2, 4, 32, 512, 512]⟩

/-- Plane b·32 + c of the [128, 512, 512] view is plane (b, c) of the array. -/
theorem plane_merge (d : EReal) (a : A4.Idx → EReal) (h : A4.ShapeCasts A3) {b c : ℕ} (hb : b < 4) (hc : c < 32)
    (i j : ℕ) : plane3 d (shapeCast A3 a h) (b * 32 + c) i j = plane4 d a b c i j := by
  by_cases hij : i < 512 ∧ j < 512
  · obtain ⟨hi, hj⟩ := hij
    rw [plane3_of_lt d _ (by omega : b * 32 + c < 128) hi hj, plane4_of_lt d a hb hc hi hj]
    refine shapeCast_apply a h _ _ ?_
    rw [Shape.rowMajor_val_four, Shape.rowMajor_val_three]
    show ((b * 32 + c) * 512 + i) * 512 + j = ((b * 32 + c) * 512 + i) * 512 + j
    rfl
  · rw [plane3_of_not d _ (by omega), plane4_of_not d a (by omega)]

/-- Pooling the merged views channel image by channel image and splitting the leading axis again is pooling the cosets. -/
theorem reshape_pooled (d : EReal) (a0 a1 : A4.Idx → EReal) (h : A4.ShapeCasts A3) (h' : R4.ShapeCasts R5) :
    shapeCast R5 (kpooled d (shapeCast A3 a0 h) (shapeCast A3 a1 h)) h' = pooled d a0 a1 := by
  funext q
  obtain ⟨k, b, c, i, j, rfl⟩ : ∃ (k : Fin 2) (b : Fin 4) (c : Fin 32) (i j : Fin 512), q = ix5 k b c i j :=
    ⟨q 0, q 1, q 2, q 3, q 4, eq_ix5 q⟩
  have hb : b.val < 4 := b.isLt
  have hc : c.val < 32 := c.isLt
  refine (shapeCast_apply _ h' (ix5 k b c i j) (ix4 k ⟨b.val * 32 + c.val, by omega⟩ i j) ?_).trans ?_
  · rw [Shape.rowMajor_val_four, Shape.rowMajor_val_five]
    show ((k.val * 128 + (b.val * 32 + c.val)) * 512 + i.val) * 512 + j.val
      = (((k.val * 4 + b.val) * 32 + c.val) * 512 + i.val) * 512 + j.val
    omega
  · have e0 : plane3 d (shapeCast A3 a0 h) (b.val * 32 + c.val) = plane4 d a0 b.val c.val :=
      funext fun i => funext fun j => plane_merge d a0 h hb hc i j
    have e1 : plane3 d (shapeCast A3 a1 h) (b.val * 32 + c.val) = plane4 d a1 b.val c.val :=
      funext fun i => funext fun j => plane_merge d a1 h hb hc i j
    rw [kpooled_ix4, pooled_ix5]
    show (if k.val = 0 then kpool0 (plane3 d (shapeCast A3 a0 h) (b.val * 32 + c.val)) (plane3 d (shapeCast A3 a1 h) (b.val * 32 + c.val)) i.val j.val
        else kpool1 (plane3 d (shapeCast A3 a0 h) (b.val * 32 + c.val)) (plane3 d (shapeCast A3 a1 h) (b.val * 32 + c.val)) i.val j.val) = _
    rw [e0, e1, kpool0_eq, kpool1_eq]

end Cert.Lattice.Reshape

end
-- ==== Proof.KernelArray.lean ====
/-
  From blocks to the kernel program's result.

  Grid point t handles channel images 2t and 2t+1: the two input windows show rows 2t, 2t+1 of the merged
  [128, 512, 512] views of the cosets, and the output window shows rows 2t, 2t+1 of both halves of the
  [2, 128, 512, 512] array. Since pooling works channel image by channel image, what point t writes back is its block
  of ONE array, the pooled array of the two merged views; the 64 blocks cover the output array, so that is what the
  array holds after the run. The host's reshape of the cosets before the region and of the result after it are then
  undone by the row-major lemma, and the program's result is the pooled array of its two arguments.
-/
import proofs.«170969_j16853451669851_2_alg».proof.Proof.Gen.KernelIdeal.Frame
import proofs.«170969_j16853451669851_2_alg».proof.Proof.KernelOut
import proofs.«170969_j16853451669851_2_alg».proof.Proof.KernelReshape
import Idealize.ShloMosaic.Lib.Pipeline.Value
import Idealize.ShloMosaic.Lib.StableHlo.Run

noncomputable section

namespace Cert.Lattice.Array

open Cert.KernelIdeal Cert.KernelIdeal.Gen Idealize.ShloMosaic Idealize.ShloMosaic.TcCoe Idealize.SL.Sem
open Idealize.ShloMosaic.ValueIdx Cert.Lattice Cert.Lattice.Block
open Idealize.ShloMosaic.Pipeline (Dat)

variable (m : (ℓ : Loc nD τ sig) → Buf (Elt Ideal) ℓ) (ρ : Dev nD → PrngReg)

/-! ## Which rows a point's windows show -/

/-- Block indices at point t, decided over the 64 points: the input windows sit at block t of the leading axis, the
    output window at block t of its second axis, and at block 0 elsewhere. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 4) = 0 ∧ win0_2.index t (1 : Fin 4) = t.val
    ∧ win0_2.index t (2 : Fin 4) = 0 ∧ win0_2.index t (3 : Fin 4) = 0 :=
  (by decide +kernel : ∀ t : Fin grid0.N, _)

theorem point_lt (t : Fin cfg0.N) : t.val < 64 := lt_of_lt_of_eq t.isLt N_0

/-- Plane p of coset 0's block at point t is plane 2t + p of its merged view. -/
theorem iblk0_plane (c : Dev nD) (t : Fin cfg0.N) {p : ℕ} (hp : p < 2) :
    plane3 fill (iblk m c 0 t : Vec Ideal S2x512x512 .f32) p = plane3 fill (V m c main_v0) (2 * t.val + p) := by
  have ht := point_lt t
  obtain ⟨e0, e1, e2, -⟩ := idx_facts t
  funext i j
  by_cases h : i < 512 ∧ j < 512
  · obtain ⟨hi, hj⟩ := h
    rw [plane3_of_lt fill _ hp hi hj, plane3_of_lt fill _ (by omega : 2 * t.val + p < 128) hi hj]
    show V m c main_v0 (((cfg0.win 0).blk t).view.emb (ix3 (⟨p, hp⟩ : Fin 2) (⟨i, hi⟩ : Fin 512) (⟨j, hj⟩ : Fin 512))) = _
    refine congrArg (V m c main_v0) (funext fun a => Fin.ext ?_)
    match a with
    | ⟨0, _⟩ => show win0_0.index t (0 : Fin 3) * 2 + 1 * p = 2 * t.val + p; omega
    | ⟨1, _⟩ => show win0_0.index t (1 : Fin 3) * 512 + 1 * i = i; omega
    | ⟨2, _⟩ => show win0_0.index t (2 : Fin 3) * 512 + 1 * j = j; omega
  · rw [plane3_of_not fill _ (by omega), plane3_of_not fill _ (by omega)]

/-- Plane p of coset 1's block at point t is plane 2t + p of its merged view. -/
theorem iblk1_plane (c : Dev nD) (t : Fin cfg0.N) {p : ℕ} (hp : p < 2) :
    plane3 fill (iblk m c 1 t : Vec Ideal S2x512x512 .f32) p = plane3 fill (V m c main_v1) (2 * t.val + p) := by
  have ht := point_lt t
  obtain ⟨-, -, -, e0, e1, e2, -⟩ := idx_facts t
  funext i j
  by_cases h : i < 512 ∧ j < 512
  · obtain ⟨hi, hj⟩ := h
    rw [plane3_of_lt fill _ hp hi hj, plane3_of_lt fill _ (by omega : 2 * t.val + p < 128) hi hj]
    show V m c main_v1 (((cfg0.win 1).blk t).view.emb (ix3 (⟨p, hp⟩ : Fin 2) (⟨i, hi⟩ : Fin 512) (⟨j, hj⟩ : Fin 512))) = _
    refine congrArg (V m c main_v1) (funext fun a => Fin.ext ?_)
    match a with
    | ⟨0, _⟩ => show win0_1.index t (0 : Fin 3) * 2 + 1 * p = 2 * t.val + p; omega
    | ⟨1, _⟩ => show win0_1.index t (1 : Fin 3) * 512 + 1 * i = i; omega
    | ⟨2, _⟩ => show win0_1.index t (2 : Fin 3) * 512 + 1 * j = j; omega
  · rw [plane3_of_not fill _ (by omega), plane3_of_not fill _ (by omega)]

/-! ## What a point writes back, and the array after the run -/

/-- WHAT POINT t WRITES BACK is its block of the pooled array of the two merged views. -/
theorem flushed_eq (c : Dev nD) (t : Fin cfg0.N) :
    (dats m 0 c).flushed 2 t
      = ((cfg0.win 2).blk t).view.read (Elt Ideal) (kpooled fill (V m c main_v0) (V m c main_v1)) := by
  show (cfg0.win 2).cut (grid0.coords t) ((dats m 0 c).after 2 t) = _
  rw [after0_2, out_block]
  obtain ⟨-, -, -, -, -, -, e0, e1, e2, e3⟩ := idx_facts t
  funext y
  have h1 : (y 1).val < 2 := (y 1).isLt
  have c0 : ((((cfg0.win 2).blk t).view.emb y) 0).val = (y 0).val := by
    show win0_2.index t (0 : Fin 4) * 2 + 1 * (y 0).val = (y 0).val; omega
  have c1 : ((((cfg0.win 2).blk t).view.emb y) 1).val = 2 * t.val + (y 1).val := by
    show win0_2.index t (1 : Fin 4) * 2 + 1 * (y 1).val = 2 * t.val + (y 1).val; omega
  have c2 : ((((cfg0.win 2).blk t).view.emb y) 2).val = (y 2).val := by
    show win0_2.index t (2 : Fin 4) * 512 + 1 * (y 2).val = (y 2).val; omega
  have c3 : ((((cfg0.win 2).blk t).view.emb y) 3).val = (y 3).val := by
    show win0_2.index t (3 : Fin 4) * 512 + 1 * (y 3).val = (y 3).val; omega
  show kpooled fill (iblk m c 0 t : Vec Ideal S2x512x512 .f32) (iblk m c 1 t : Vec Ideal S2x512x512 .f32) y
    = kpooled fill (V m c main_v0) (V m c main_v1) (((cfg0.win 2).blk t).view.emb y)
  unfold kpooled
  rw [c0, c1, c2, c3, iblk0_plane m c t h1, iblk1_plane m c t h1]

/-- An index of the output array is in point t's block iff each coordinate is in the block's range on its axis. -/
theorem mem_blk (t : Fin cfg0.N) (i : S2x128x512x512.Idx) :
    i ∈ ((cfg0.win 2).blk t).view.set ↔ ∀ a : Fin 4, win0_2.index t a * S2x2x512x512.size a ≤ (i a).val
      ∧ (i a).val < win0_2.index t a * S2x2x512x512.size a + S2x2x512x512.size a := by
  show i ∈ ((View.whole main_v2).slice (win0_2.rect t)).set ↔ _
  rw [View.set_slice_whole, Rect.mem_set_unit]
  exact Iff.rfl

/-- Every index of the output array is in the block of the point that handles its channel image. -/
theorem cover (i : S2x128x512x512.Idx) :
    ∃ t : Fin cfg0.N, (cfg0.win 2).flush t = true ∧ i ∈ ((cfg0.win 2).blk t).view.set := by
  have h0 : (i 0).val < 2 := (i 0).isLt
  have h1 : (i 1).val < 128 := (i 1).isLt
  have h2 : (i 2).val < 512 := (i 2).isLt
  have h3 : (i 3).val < 512 := (i 3).isLt
  have hN : (i 1).val / 2 < cfg0.N := lt_of_lt_of_eq (by omega : (i 1).val / 2 < 64) N_0.symm
  obtain ⟨-, -, -, -, -, -, e0, e1, e2, e3⟩ := idx_facts ⟨(i 1).val / 2, hN⟩
  have e1' : win0_2.index ⟨(i 1).val / 2, hN⟩ (1 : Fin 4) = (i 1).val / 2 := e1
  refine ⟨⟨(i 1).val / 2, hN⟩, flush0_2 _, ?_⟩
  rw [mem_blk]
  intro a
  match a with
  | ⟨0, _⟩ =>
    show win0_2.index ⟨(i 1).val / 2, hN⟩ (0 : Fin 4) * 2 ≤ (i 0).val
      ∧ (i 0).val < win0_2.index ⟨(i 1).val / 2, hN⟩ (0 : Fin 4) * 2 + 2
    omega
  | ⟨1, _⟩ =>
    show win0_2.index ⟨(i 1).val / 2, hN⟩ (1 : Fin 4) * 2 ≤ (i 1).val
      ∧ (i 1).val < win0_2.index ⟨(i 1).val / 2, hN⟩ (1 : Fin 4) * 2 + 2
    omega
  | ⟨2, _⟩ =>
    show win0_2.index ⟨(i 1).val / 2, hN⟩ (2 : Fin 4) * 512 ≤ (i 2).val
      ∧ (i 2).val < win0_2.index ⟨(i 1).val / 2, hN⟩ (2 : Fin 4) * 512 + 512
    omega
  | ⟨3, _⟩ =>
    show win0_2.index ⟨(i 1).val / 2, hN⟩ (3 : Fin 4) * 512 ≤ (i 3).val
      ∧ (i 3).val < win0_2.index ⟨(i 1).val / 2, hN⟩ (3 : Fin 4) * 512 + 512
    omega

/-- THE OUTPUT ARRAY after the run is the pooled array of the two merged views. -/
theorem final (c : Dev nD) :
    (dats m 0 c).arrAt 2 cfg0.N = kpooled fill (V m c main_v0) (V m c main_v1) :=
  (dats m 0 c).arrAt_eq_of_cover 2 _ (fun t _ => flushed_eq m c t) cover

/-! ## The host's reshapes -/

/-- The region finds coset 0 viewed as [128, 512, 512]. -/
theorem V_v0 (c : Dev nD) : (V m c main_v0 : S128x512x512.Idx → EReal)
    = shapeCast S128x512x512 (m ((c : Thread nD τ).loc main_arg0)) shapeCasts_S4x32x512x512_S128x512x512 := by
  show StableHlo.after hostOps0 (fun b => m (c, b)) (Proc.devRef .tc main_v0) = _
  after_results
  rfl

/-- The region finds coset 1 viewed as [128, 512, 512]. -/
theorem V_v1 (c : Dev nD) : (V m c main_v1 : S128x512x512.Idx → EReal)
    = shapeCast S128x512x512 (m ((c : Thread nD τ).loc main_arg1)) shapeCasts_S4x32x512x512_S128x512x512 := by
  show StableHlo.after hostOps0 (fun b => m (c, b)) (Proc.devRef .tc main_v1) = _
  after_results
  rfl

/-- The program's result is the output array viewed as [2, 4, 32, 512, 512]. -/
theorem tail_v3 (c : Dev nD) :
    Pipeline.afterTail₀ cfgs (dats m) 0 (V0 m) [hostOps1] c main_v3
      = shapeCast S2x4x32x512x512 ((dats m 0 c).arrAt 2 cfg0.N) shapeCasts_S2x128x512x512_S2x4x32x512x512 := by
  unfold Pipeline.afterTail₀
  show StableHlo.after hostOps1 _ (Proc.devRef .tc main_v3) = _
  after_results
  rw [Pipeline.withArrays_arr spec0 launch0.win.arr_inj c _ _ 2]
  rfl

/-- THE RESULT: the pooled array of the two arguments. -/
theorem result_eq (c : Dev nD) :
    Pipeline.afterTail₀ cfgs (dats m) 0 (V0 m) [hostOps1] c main_v3
      = pooled fill (m ((c : Thread nD τ).loc main_arg0)) (m ((c : Thread nD τ).loc main_arg1)) := by
  rw [tail_v3, final, V_v0, V_v1]
  exact Reshape.reshape_pooled fill _ _ _ _

/-! ## The run -/

/-- Every weakly fair execution of the kernel's program terminates with its result at the pooled array of its
    arguments and the arguments unchanged. -/
theorem run : θ_run defs (onTc (τ := τ) (main (F := Ideal))) ⟨m, fun _ => 0, ρ⟩ fun r => ∀ c : Dev nD,
      r.2.mem ((c.tc : Thread nD τ).loc main_v3)
        = pooled fill (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.Lattice.Array

end
-- ==== Proof.RefValue.lean ====
/-
  The reference, read at an index.

  The reference looks ahead by padding: it appends one row and/or one column of the fill value to a coset and
  slices the padded array one row and/or one column in. Read at (b, c, i, j) that is the coset's plane (b, c),
  extended by the fill value, at (i+1, j), (i, j+1) or (i+1, j+1); a pad by nothing is the coset itself. Its two
  five-fold maxima are then the two pools of the cosets' planes, and stacking them along a new leading axis gives
  the pooled array.
-/
import proofs.«170969_j16853451669851_2_alg».proof.Proof.Gen.ReferenceIdeal.Read
import proofs.«170969_j16853451669851_2_alg».proof.Proof.LibRotatePad
import proofs.«170969_j16853451669851_2_alg».proof.Proof.LibLatticePool

noncomputable section

namespace Cert.Lattice.Ref

open Cert.ReferenceIdeal Cert.ReferenceIdeal.Gen Cert.ReferenceIdeal.Read
open Idealize.ShloMosaic Idealize.ShloMosaic.ValueIdx Cert.Lattice

theorem zero4 : ∀ a : Fin 4, (![0, 0, 0, 0] : Fin 4 → Nat) a = 0 := by decide

/-! ## The four padded reads, for any padding operand whose one element is the fill value -/

/-- A pad by nothing is the array. -/
theorem read_same (x : S4x32x512x512.Idx → EReal) (v : S_.Idx → EReal) (b : Fin 4) (c : Fin 32) (i j : Fin 512) :
    pad S4x32x512x512 ![0, 0, 0, 0] ![0, 0, 0, 0] ![0, 0, 0, 0] x v pads_S4x32x512x512_S4x32x512x512_000_000_000_000 h_S_
      (ix4 b c i j) = plane4 fill x b.val c.val i.val j.val := by
  rw [plane4_of_lt fill x b.isLt c.isLt i.isLt j.isLt]
  exact Cert.Lib.pad_high_apply_inside _ _ _ x v _ _ zero4 zero4 _ _ (fun a => match a with
    | ⟨0, _⟩ => rfl | ⟨1, _⟩ => rfl | ⟨2, _⟩ => rfl | ⟨3, _⟩ => rfl)

/-- One row appended, sliced one row in: the plane one row ahead. -/
theorem read_aheadH (x : S4x32x512x512.Idx → EReal) (v : S_.Idx → EReal) (hv : ∀ u, v u = fill)
    (b : Fin 4) (c : Fin 32) (i j : Fin 512) :
    extractStridedSlice S4x32x512x512 ![0, 0, 1, 0]
      (pad S4x32x513x512 ![0, 0, 0, 0] ![0, 0, 1, 0] ![0, 0, 0, 0] x v pads_S4x32x512x512_S4x32x513x512_000_000_010_000 h_S_)
      slices_S4x32x513x512_S4x32x512x512_0_0_1_0 (ix4 b c i j) = plane4 fill x b.val c.val (i.val + 1) j.val := by
  have hi := i.isLt
  refine (extractStridedSlice_apply _ _ _ (ix4 b c i j) (ix4 b c (⟨i.val + 1, by omega⟩ : Fin 513) j) (fun a => match a with
    | ⟨0, _⟩ => by show b.val = 0 + b.val; omega
    | ⟨1, _⟩ => by show c.val = 0 + c.val; omega
    | ⟨2, _⟩ => by show i.val + 1 = 1 + i.val; omega
    | ⟨3, _⟩ => by show j.val = 0 + j.val; omega)).trans ?_
  by_cases h : i.val + 1 < 512
  · rw [plane4_of_lt fill x b.isLt c.isLt h j.isLt]
    exact Cert.Lib.pad_high_apply_inside _ _ _ x v _ _ zero4 zero4 _ _ (fun a => match a with
      | ⟨0, _⟩ => rfl | ⟨1, _⟩ => rfl | ⟨2, _⟩ => rfl | ⟨3, _⟩ => rfl)
  · rw [plane4_of_not fill x (by omega)]
    exact (Cert.Lib.pad_high_apply_outside _ _ _ x v _ _ zero4 zero4 _ (2 : Fin 4) (by show 512 ≤ i.val + 1; omega)).trans (hv _)

/-- One column appended, sliced one column in: the plane one column ahead. -/
theorem read_aheadW (x : S4x32x512x512.Idx → EReal) (v : S_.Idx → EReal) (hv : ∀ u, v u = fill)
    (b : Fin 4) (c : Fin 32) (i j : Fin 512) :
    extractStridedSlice S4x32x512x512 ![0, 0, 0, 1]
      (pad S4x32x512x513 ![0, 0, 0, 0] ![0, 0, 0, 1] ![0, 0, 0, 0] x v pads_S4x32x512x512_S4x32x512x513_000_000_000_010 h_S_)
      slices_S4x32x512x513_S4x32x512x512_0_0_0_1 (ix4 b c i j) = plane4 fill x b.val c.val i.val (j.val + 1) := by
  have hj := j.isLt
  refine (extractStridedSlice_apply _ _ _ (ix4 b c i j) (ix4 b c i (⟨j.val + 1, by omega⟩ : Fin 513)) (fun a => match a with
    | ⟨0, _⟩ => by show b.val = 0 + b.val; omega
    | ⟨1, _⟩ => by show c.val = 0 + c.val; omega
    | ⟨2, _⟩ => by show i.val = 0 + i.val; omega
    | ⟨3, _⟩ => by show j.val + 1 = 1 + j.val; omega)).trans ?_
  by_cases h : j.val + 1 < 512
  · rw [plane4_of_lt fill x b.isLt c.isLt i.isLt h]
    exact Cert.Lib.pad_high_apply_inside _ _ _ x v _ _ zero4 zero4 _ _ (fun a => match a with
      | ⟨0, _⟩ => rfl | ⟨1, _⟩ => rfl | ⟨2, _⟩ => rfl | ⟨3, _⟩ => rfl)
  · rw [plane4_of_not fill x (by omega)]
    exact (Cert.Lib.pad_high_apply_outside _ _ _ x v _ _ zero4 zero4 _ (3 : Fin 4) (by show 512 ≤ j.val + 1; omega)).trans (hv _)

/-- One row and one column appended, sliced one row and one column in: the plane diagonally ahead. -/
theorem read_aheadD (x : S4x32x512x512.Idx → EReal) (v : S_.Idx → EReal) (hv : ∀ u, v u = fill)
    (b : Fin 4) (c : Fin 32) (i j : Fin 512) :
    extractStridedSlice S4x32x512x512 ![0, 0, 1, 1]
      (pad S4x32x513x513 ![0, 0, 0, 0] ![0, 0, 1, 1] ![0, 0, 0, 0] x v pads_S4x32x512x512_S4x32x513x513_000_000_010_010 h_S_)
      slices_S4x32x513x513_S4x32x512x512_0_0_1_1 (ix4 b c i j) = plane4 fill x b.val c.val (i.val + 1) (j.val + 1) := by
  have hi := i.isLt
  have hj := j.isLt
  refine (extractStridedSlice_apply _ _ _ (ix4 b c i j)
    (ix4 b c (⟨i.val + 1, by omega⟩ : Fin 513) (⟨j.val + 1, by omega⟩ : Fin 513)) (fun a => match a with
    | ⟨0, _⟩ => by show b.val = 0 + b.val; omega
    | ⟨1, _⟩ => by show c.val = 0 + c.val; omega
    | ⟨2, _⟩ => by show i.val + 1 = 1 + i.val; omega
    | ⟨3, _⟩ => by show j.val + 1 = 1 + j.val; omega)).trans ?_
  by_cases h : i.val + 1 < 512 ∧ j.val + 1 < 512
  · rw [plane4_of_lt fill x b.isLt c.isLt h.1 h.2]
    exact Cert.Lib.pad_high_apply_inside _ _ _ x v _ _ zero4 zero4 _ _ (fun a => match a with
      | ⟨0, _⟩ => rfl | ⟨1, _⟩ => rfl | ⟨2, _⟩ => rfl | ⟨3, _⟩ => rfl)
  · rw [plane4_of_not fill x (by omega)]
    by_cases h' : i.val + 1 < 512
    · exact (Cert.Lib.pad_high_apply_outside _ _ _ x v _ _ zero4 zero4 _ (3 : Fin 4) (by show 512 ≤ j.val + 1; omega)).trans (hv _)
    · exact (Cert.Lib.pad_high_apply_outside _ _ _ x v _ _ zero4 zero4 _ (2 : Fin 4) (by show 512 ≤ i.val + 1; omega)).trans (hv _)

/-! ## The two maxima -/

/-- Coset 0's result at (b, c, i, j) is coset 0's pool of the two planes. -/
theorem out0_apply (a0 a1 : S4x32x512x512.Idx → EReal) (b : Fin 4) (c : Fin 32) (i j : Fin 512) :
    val_main_v11 (F := Ideal) a0 a1 (ix4 b c i j)
      = pool0 (plane4 fill a0 b.val c.val) (plane4 fill a1 b.val c.val) i.val j.val := by
  show max (max (max (max (val_main_v0 (F := Ideal) a0 (ix4 b c i j)) (val_main_v1 (F := Ideal) a1 (ix4 b c i j)))
    (val_main_v4 (F := Ideal) a0 (ix4 b c i j))) (val_main_v7 (F := Ideal) a0 (ix4 b c i j))) (val_main_v10 (F := Ideal) a0 (ix4 b c i j)) = _
  unfold val_main_v0 val_main_v1 val_main_v4 val_main_v3 val_main_v7 val_main_v6 val_main_v10 val_main_v9
  rw [read_same, read_same, read_aheadH a0 (val_main_call2_v0 (F := Ideal)) (fun _ => rfl),
    read_aheadW a0 (val_main_call3_v0 (F := Ideal)) (fun _ => rfl), read_aheadD a0 (val_main_call4_v0 (F := Ideal)) (fun _ => rfl)]
  rfl

/-- Coset 1's result at (b, c, i, j) is coset 1's pool of the two planes. -/
theorem out1_apply (a0 a1 : S4x32x512x512.Idx → EReal) (b : Fin 4) (c : Fin 32) (i j : Fin 512) :
    val_main_v24 (F := Ideal) a0 a1 (ix4 b c i j)
      = pool1 (plane4 fill a0 b.val c.val) (plane4 fill a1 b.val c.val) i.val j.val := by
  show max (max (max (max (val_main_v12 (F := Ideal) a1 (ix4 b c i j)) (val_main_v14 (F := Ideal) a0 (ix4 b c i j)))
    (val_main_v17 (F := Ideal) a1 (ix4 b c i j))) (val_main_v20 (F := Ideal) a1 (ix4 b c i j))) (val_main_v23 (F := Ideal) a1 (ix4 b c i j)) = _
  unfold val_main_v12 val_main_v14 val_main_v13 val_main_v17 val_main_v16 val_main_v20 val_main_v19 val_main_v23 val_main_v22
  rw [read_same, read_aheadD a0 (val_main_call6_v0 (F := Ideal)) (fun _ => rfl), read_aheadH a1 (val_main_call7_v0 (F := Ideal)) (fun _ => rfl),
    read_aheadW a1 (val_main_call8_v0 (F := Ideal)) (fun _ => rfl), read_aheadD a1 (val_main_call9_v0 (F := Ideal)) (fun _ => rfl)]
  rfl

/-! ## The stacked result -/

/-- THE REFERENCE'S RESULT is the pooled array of its two arguments. -/
theorem result_eq (a0 a1 : S4x32x512x512.Idx → EReal) : val_main_v27 (F := Ideal) a0 a1 = pooled fill a0 a1 := by
  funext q
  obtain ⟨k, b, c, i, j, rfl⟩ : ∃ (k : Fin 2) (b : Fin 4) (c : Fin 32) (i j : Fin 512), q = ix5 k b c i j :=
    ⟨q 0, q 1, q 2, q 3, q 4, eq_ix5 q⟩
  have hk := k.isLt
  rw [pooled_ix5]
  unfold val_main_v27
  by_cases h0 : k.val = 0
  · rw [if_pos h0]
    refine (concatenate_pair_apply_left (0 : Fin 5) (val_main_v25 (F := Ideal) a0 a1) (val_main_v26 (F := Ideal) a0 a1)
      concatenates_S1x4x32x512x512_S1x4x32x512x512_S2x4x32x512x512_d0 (ix5 k b c i j) rfl
      (ix5 (⟨0, by decide⟩ : Fin 1) b c i j) (fun a => match a with
        | ⟨0, _⟩ => by show 0 = k.val; omega
        | ⟨1, _⟩ => rfl | ⟨2, _⟩ => rfl | ⟨3, _⟩ => rfl | ⟨4, _⟩ => rfl)).trans ?_
    have e : idx_main_v25 (ix5 (⟨0, by decide⟩ : Fin 1) b c i j) = ix4 b c i j :=
      funext fun a => match a with | ⟨0, _⟩ => rfl | ⟨1, _⟩ => rfl | ⟨2, _⟩ => rfl | ⟨3, _⟩ => rfl
    rw [val_main_v25_apply, e]
    exact out0_apply a0 a1 b c i j
  · rw [if_neg h0]
    refine (concatenate_pair_apply_right (0 : Fin 5) (val_main_v25 (F := Ideal) a0 a1) (val_main_v26 (F := Ideal) a0 a1)
      concatenates_S1x4x32x512x512_S1x4x32x512x512_S2x4x32x512x512_d0 (ix5 k b c i j) rfl rfl
      (ix5 (⟨0, by decide⟩ : Fin 1) b c i j) (fun a ha => match a, ha with
        | ⟨0, _⟩, ha => absurd rfl ha
        | ⟨1, _⟩, _ => rfl | ⟨2, _⟩, _ => rfl | ⟨3, _⟩, _ => rfl | ⟨4, _⟩, _ => rfl)
      (by show 0 + 1 = k.val; omega)).trans ?_
    have e : idx_main_v26 (ix5 (⟨0, by decide⟩ : Fin 1) b c i j) = ix4 b c i j :=
      funext fun a => match a with | ⟨0, _⟩ => rfl | ⟨1, _⟩ => rfl | ⟨2, _⟩ => rfl | ⟨3, _⟩ => rfl
    rw [val_main_v26_apply, e]
    exact out1_apply a0 a1 b c i j

end Cert.Lattice.Ref

end
-- ==== Proof.lean ====
/-
  Max-pooling over a quincunx lattice: two interleaved cosets c0, c1 of shape [4, 32, 512, 512], each H×W plane
  pooled by itself, the results stacked into [2, 4, 32, 512, 512].

  With sh(y, di, dj)[i, j] = y[i+di, j+dj] inside the plane and −∞ past its edge, both programs compute, as extended
  reals,
      out0 = max { c0, c1, sh(c0,1,0), sh(c0,0,1), sh(c0,1,1) }
      out1 = max { c1, sh(c0,1,1), sh(c1,1,0), sh(c1,0,1), sh(c1,1,1) }.
  The reference looks ahead by appending a row and/or column of −∞ and slicing one in; the kernel by rotating a block of
  two channel images by 511 along the row or column axis and overwriting the wrapped last row or column with −∞, the
  diagonal look-ahead being the row step applied to the column step. Read on planes extended by the fill value all of
  these are plain shifts of the coordinates (Proof/LibLatticePool.lean, Proof/KernelBlock.lean, Proof/RefValue.lean).
  The two programs take the five-fold maxima in different orders, which is immaterial since max on the extended reals
  is associative and commutative; no finiteness of the inputs is used. The kernel's grid of 64 points, each writing
  rows 2t, 2t+1 of both halves of its output array, covers that array (Proof/KernelArray.lean), and the host's
  merging and splitting of the two leading axes around the kernel is the identity on channel images
  (Proof/KernelReshape.lean). The idealization rewrote nothing, so the kernel's idealization is its own text.
-/
import proofs.«170969_j16853451669851_2_alg».proof.Defs
import proofs.«170969_j16853451669851_2_alg».proof.Proof.Gen.Kernel
import proofs.«170969_j16853451669851_2_alg».proof.Proof.Gen.Kernel.Skeleton
import proofs.«170969_j16853451669851_2_alg».proof.Proof.Gen.Kernel.Launch
import proofs.«170969_j16853451669851_2_alg».proof.Proof.Gen.Kernel.Points
import proofs.«170969_j16853451669851_2_alg».proof.Proof.Gen.Kernel.Frame
import proofs.«170969_j16853451669851_2_alg».proof.Proof.Gen.KernelIdeal
import proofs.«170969_j16853451669851_2_alg».proof.Proof.Gen.KernelIdeal.Skeleton
import proofs.«170969_j16853451669851_2_alg».proof.Proof.Gen.KernelIdeal.Launch
import proofs.«170969_j16853451669851_2_alg».proof.Proof.Gen.KernelIdeal.Points
import proofs.«170969_j16853451669851_2_alg».proof.Proof.Gen.KernelIdeal.Frame
import proofs.«170969_j16853451669851_2_alg».proof.Proof.Gen.ReferenceIdeal
import proofs.«170969_j16853451669851_2_alg».proof.Proof.Gen.ReferenceIdeal.Run
import proofs.«170969_j16853451669851_2_alg».proof.Proof.Gen.ReferenceIdeal.Read
import proofs.«170969_j16853451669851_2_alg».proof.Proof.Gen.Pre_finite_inputs
import proofs.«170969_j16853451669851_2_alg».proof.Proof.KernelArray
import proofs.«170969_j16853451669851_2_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two cosets, both idealized programs end with the pooled array of the cosets. -/
theorem algebraic : Cert.algebraic_KernelIdeal_ReferenceIdeal := by
  intro m ρ m' ρ' _ hagree
  refine ⟨_, Cert.Lattice.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.Lattice.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
